-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S512x257 : Shape := ⟨2, ![512, 257]⟩
abbrev S1x257 : Shape := ⟨2, ![1, 257]⟩
abbrev S257x1 : Shape := ⟨2, ![257, 1]⟩
abbrev S1x1 : Shape := ⟨2, ![1, 1]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S512x257 : S_.BroadcastsInDim S512x257 (![] : Fin 0 → Fin S512x257.rank)
  reducesTo_S512x257_S_d0_1 : S512x257.ReducesTo [0, 1] S_
  bcast_S_S1x257 : S_.BroadcastsInDim S1x257 (![] : Fin 0 → Fin S1x257.rank)
  reducesTo_S1x257_S_d0_1 : S1x257.ReducesTo [0, 1] S_
  bcast_S_S257x1 : S_.BroadcastsInDim S257x1 (![] : Fin 0 → Fin S257x1.rank)
  reducesTo_S257x1_S_d0_1 : S257x1.ReducesTo [0, 1] S_
  bcast_S_S1x1 : S_.BroadcastsInDim S1x1 (![] : Fin 0 → Fin S1x1.rank)
  reducesTo_S1x1_S_d0_1 : S1x1.ReducesTo [0, 1] S_

variable [Facts]

def fn_part1 {F : FTy → Type} [FloatOps F] (main_arg4 : FVec F S1x1 .f32) (main_v13 : IVec S_ 1) (main_v16 : IVec S257x1 1) : IVec S_ 1 :=
  let main_c_5 : IVec S_ 1 := constantI S_ 1 1#1
  let main_v17 : IVec S_ 1 := (fun x v => Host.reduce IntOp.andi x v reducesTo_S257x1_S_d0_1 h_S_) main_v16 main_c_5
  let main_v18 : IVec S_ 1 := andi main_v13 main_v17
  let main_v19 : FVec F S1x1 .f32 := Host.absf main_arg4
  let main_cst_6 : FVec F S_ .f32 := constant S_ .f32 0x7F800000#32
  let main_v20 : FVec F S1x1 .f32 := broadcastInDim S1x1 ![] bcast_S_S1x1 main_cst_6
  let main_v21 : IVec S1x1 1 := cmpf .olt main_v19 main_v20
  let main_c_7 : IVec S_ 1 := constantI S_ 1 1#1
  let main_v22 : IVec S_ 1 := (fun x v => Host.reduce IntOp.andi x v reducesTo_S1x1_S_d0_1 h_S_) main_v21 main_c_7
  let main_v23 : IVec S_ 1 := andi main_v18 main_v22
  main_v23

def fn {F : FTy → Type} [FloatOps F] (main_arg0 : FVec F S131072x512 .f32) (main_arg1 : FVec F S512x257 .f32) (main_arg2 : FVec F S1x257 .f32) (main_arg3 : FVec F S257x1 .f32) (main_arg4 : FVec F S1x1 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S512x257 .f32 := Host.absf main_arg1
  let main_cst_0 : FVec F S_ .f32 := constant S_ .f32 0x7F800000#32
  let main_v5 : FVec F S512x257 .f32 := broadcastInDim S512x257 ![] bcast_S_S512x257 main_cst_0
  let main_v6 : IVec S512x257 1 := cmpf .olt main_v4 main_v5
  let main_c_1 : IVec S_ 1 := constantI S_ 1 1#1
  let main_v7 : IVec S_ 1 := (fun x v => Host.reduce IntOp.andi x v reducesTo_S512x257_S_d0_1 h_S_) main_v6 main_c_1
  let main_v8 : IVec S_ 1 := andi main_v3 main_v7
  let main_v9 : FVec F S1x257 .f32 := Host.absf main_arg2
  let main_cst_2 : FVec F S_ .f32 := constant S_ .f32 0x7F800000#32
  let main_v10 : FVec F S1x257 .f32 := broadcastInDim S1x257 ![] bcast_S_S1x257 main_cst_2
  let main_v11 : IVec S1x257 1 := cmpf .olt main_v9 main_v10
  let main_c_3 : IVec S_ 1 := constantI S_ 1 1#1
  let main_v12 : IVec S_ 1 := (fun x v => Host.reduce IntOp.andi x v reducesTo_S1x257_S_d0_1 h_S_) main_v11 main_c_3
  let main_v13 : IVec S_ 1 := andi main_v8 main_v12
  let main_v14 : FVec F S257x1 .f32 := Host.absf main_arg3
  let main_cst_4 : FVec F S_ .f32 := constant S_ .f32 0x7F800000#32
  let main_v15 : FVec F S257x1 .f32 := broadcastInDim S257x1 ![] bcast_S_S257x1 main_cst_4
  let main_v16 : IVec S257x1 1 := cmpf .olt main_v14 main_v15
  fn_part1 (F := F) main_arg4 main_v13 main_v16
-- ==== Kernel.lean ====
abbrev S131072x512 : Shape := ⟨2, ![131072, 512]⟩
abbrev S512x257 : Shape := ⟨2, ![512, 257]⟩
abbrev S1x257 : Shape := ⟨2, ![1, 257]⟩
abbrev S257x1 : Shape := ⟨2, ![257, 1]⟩
abbrev S1x1 : Shape := ⟨2, ![1, 1]⟩
abbrev S1x131072 : Shape := ⟨2, ![1, 131072]⟩
abbrev S8192x512 : Shape := ⟨2, ![8192, 512]⟩
abbrev S1x8192 : Shape := ⟨2, ![1, 8192]⟩
abbrev S1x512 : Shape := ⟨2, ![1, 512]⟩
abbrev S131072 : Shape := ⟨1, ![131072]⟩
abbrev S131072x1 : Shape := ⟨2, ![131072, 1]⟩

abbrev nBuf : Space → Nat
  | .hbm => 8
  | .vmem => 8
  | .smem => 0
  | _ => 0

abbrev bufTy : (tb : Table) → Fin (tcTables nBuf tb) → BufTy
  | .hbm, ⟨0, _⟩ => ⟨S131072x512, .f32⟩
  | .hbm, ⟨1, _⟩ => ⟨S512x257, .f32⟩
  | .hbm, ⟨2, _⟩ => ⟨S1x257, .f32⟩
  | .hbm, ⟨3, _⟩ => ⟨S257x1, .f32⟩
  | .hbm, ⟨4, _⟩ => ⟨S1x1, .f32⟩
  | .hbm, ⟨5, _⟩ => ⟨S1x131072, .f32⟩
  | .hbm, ⟨6, _⟩ => ⟨S131072, .f32⟩
  | .hbm, ⟨7, _⟩ => ⟨S131072x1, .f32⟩
  | .local _ .vmem, ⟨0, _⟩ => ⟨S8192x512, .f32⟩
  | .local _ .vmem, ⟨1, _⟩ => ⟨S8192x512, .f32⟩
  | .local _ .vmem, ⟨2, _⟩ => ⟨S512x257, .f32⟩
  | .local _ .vmem, ⟨3, _⟩ => ⟨S257x1, .f32⟩
  | .local _ .vmem, ⟨4, _⟩ => ⟨S1x257, .f32⟩
  | .local _ .vmem, ⟨5, _⟩ => ⟨S1x1, .f32⟩
  | .local _ .vmem, ⟨6, _⟩ => ⟨S1x8192, .f32⟩
  | .local _ .vmem, ⟨7, _⟩ => ⟨S1x8192, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x257 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S257x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x257 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S257x1_S257x1_0_0 : ∀ a, (![0, 0] : Fin 2 → Nat) a + S257x1.size a ≤ S257x1.size a
  h_S257x1 : 0 < S257x1.numel
  inb_S512x257_S512x257_0_0 : ∀ a, (![0, 0] : Fin 2 → Nat) a + S512x257.size a ≤ S512x257.size a
  h_S512x257 : 0 < S512x257.numel
  inb_S1x257_S1x257_0_0 : ∀ a, (![0, 0] : Fin 2 → Nat) a + S1x257.size a ≤ S1x257.size a
  h_S1x257 : 0 < S1x257.numel
  inb_S1x1_S1x1_0_0 : ∀ a, (![0, 0] : Fin 2 → Nat) a + S1x1.size a ≤ S1x1.size a
  h_S1x1 : 0 < S1x1.numel
  inb_S8192x512_S8192x512_0_0 : ∀ a, (![0, 0] : Fin 2 → Nat) a + S8192x512.size a ≤ S8192x512.size a
  h_S8192x512 : 0 < S8192x512.numel
  broadcasts_S1x1_S1x8192 : S1x1.Broadcasts S1x8192
  inb_S1x8192_S1x8192_0_0 : ∀ a, (![0, 0] : Fin 2 → Nat) a + S1x8192.size a ≤ S1x8192.size a
  h_S1x8192 : 0 < S1x8192.numel
  shapeCasts_S1x131072_S131072 : S1x131072.ShapeCasts S131072
  shapeCasts_S131072_S131072x1 : S131072.ShapeCasts S131072x1
  dot_S257x1_S512x257_S1x512_0_1_1_0_n_n_wf : DotDims.WF S257x1 S512x257 S1x512 [0] [1] [1] [0] [] []
  dot_S1x257_S257x1_S1x1_1_0_0_1_n_n_wf : DotDims.WF S1x257 S257x1 S1x1 [1] [0] [0] [1] [] []
  dot_S1x512_S8192x512_S1x8192_1_1_0_0_n_n_wf : DotDims.WF S1x512 S8192x512 S1x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x512.size a ≤ S131072x512.size a
  hwx0_0 : ∀ i : grid0.Coords, EltTy.bits .f32 = 32 ∨ (Rect.block (s := S131072x512) S8192x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x257.size a ≤ S512x257.size a
  hwx0_1 : ∀ i : grid0.Coords, EltTy.bits .f32 = 32 ∨ (Rect.block (s := S512x257) S512x257.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S257x1.size a ≤ S257x1.size a
  hwx0_2 : ∀ i : grid0.Coords, EltTy.bits .f32 = 32 ∨ (Rect.block (s := S257x1) S257x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x257.size a ≤ S1x257.size a
  hwx0_3 : ∀ i : grid0.Coords, EltTy.bits .f32 = 32 ∨ (Rect.block (s := S1x257) S1x257.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8192.size a ≤ S1x131072.size a
  hwx0_5 : ∀ i : grid0.Coords, EltTy.bits .f32 = 32 ∨ (Rect.block (s := S1x131072) S1x8192.size (cc0_transform_5 i) (hinb0_5 i)).WholeWords (EltTy.packing .f32)

variable [Facts₀]

def dot_S257x1_S512x257_S1x512_0_1_1_0_n_n : DotDims S257x1 S512x257 S1x512 where
  lhsContracting := [0]
  rhsContracting := [1]
  lhsNonContracting := [1]
  rhsNonContracting := [0]
  lhsBatch := []
  rhsBatch := []
  wf := dot_S257x1_S512x257_S1x512_0_1_1_0_n_n_wf
def dot_S1x257_S257x1_S1x1_1_0_0_1_n_n : DotDims S1x257 S257x1 S1x1 where
  lhsContracting := [1]
  rhsContracting := [0]
  lhsNonContracting := [0]
  rhsNonContracting := [1]
  lhsBatch := []
  rhsBatch := []
  wf := dot_S1x257_S257x1_S1x1_1_0_0_1_n_n_wf
def dot_S1x512_S8192x512_S1x8192_1_1_0_0_n_n : DotDims S1x512 S8192x512 S1x8192 where
  lhsContracting := [1]
  rhsContracting := [1]
  lhsNonContracting := [0]
  rhsNonContracting := [0]
  lhsBatch := []
  rhsBatch := []
  wf := dot_S1x512_S8192x512_S1x8192_1_1_0_0_n_n_wf

abbrev win0_0 : Pipeline.Window sig grid0 :=
  Pipeline.Window.ofSpec (Memref.whole main_arg0) S8192x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x257.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S257x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x257.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x8192.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S131072x512 : Shape := ⟨2, ![131072, 512]⟩
abbrev S512x257 : Shape := ⟨2, ![512, 257]⟩
abbrev S1x257 : Shape := ⟨2, ![1, 257]⟩
abbrev S257x1 : Shape := ⟨2, ![257, 1]⟩
abbrev S1x1 : Shape := ⟨2, ![1, 1]⟩
abbrev S512x1 : Shape := ⟨2, ![512, 1]⟩
abbrev S1x512 : Shape := ⟨2, ![1, 512]⟩
abbrev S1x131072 : Shape := ⟨2, ![1, 131072]⟩
abbrev S1024x512 : Shape := ⟨2, ![1024, 512]⟩
abbrev S1x1024 : Shape := ⟨2, ![1, 1024]⟩
abbrev S131072 : Shape := ⟨1, ![131072]⟩
abbrev S131072x1 : Shape := ⟨2, ![131072, 1]⟩

abbrev nBuf : Space → Nat
  | .hbm => 12
  | .vmem => 6
  | .smem => 0
  | _ => 0

abbrev bufTy : (tb : Table) → Fin (tcTables nBuf tb) → BufTy
  | .hbm, ⟨0, _⟩ => ⟨S131072x512, .f32⟩
  | .hbm, ⟨1, _⟩ => ⟨S512x257, .f32⟩
  | .hbm, ⟨2, _⟩ => ⟨S1x257, .f32⟩
  | .hbm, ⟨3, _⟩ => ⟨S257x1, .f32⟩
  | .hbm, ⟨4, _⟩ => ⟨S1x1, .f32⟩
  | .hbm, ⟨5, _⟩ => ⟨S512x1, .f32⟩
  | .hbm, ⟨6, _⟩ => ⟨S1x512, .f32⟩
  | .hbm, ⟨7, _⟩ => ⟨S1x1, .f32⟩
  | .hbm, ⟨8, _⟩ => ⟨S1x1, .f32⟩
  | .hbm, ⟨9, _⟩ => ⟨S1x131072, .f32⟩
  | .hbm, ⟨10, _⟩ => ⟨S131072, .f32⟩
  | .hbm, ⟨11, _⟩ => ⟨S131072x1, .f32⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S1x1, .f32⟩
  | .local _ .vmem, ⟨4, _⟩ => ⟨S1x1024, .f32⟩
  | .local _ .vmem, ⟨5, _⟩ => ⟨S1x1024, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S512x1_S1x512_1_0 : S512x1.Transposes [1, 0] S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1024x512_S1024x512_0_0 : ∀ a, (![0, 0] : Fin 2 → Nat) a + S1024x512.size a ≤ S1024x512.size a
  h_S1024x512 : 0 < S1024x512.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x1024 : S1x1.Broadcasts S1x1024
  inb_S1x1024_S1x1024_0_0 : ∀ a, (![0, 0] : Fin 2 → Nat) a + S1x1024.size a ≤ S1x1024.size a
  h_S1x1024 : 0 < S1x1024.numel
  shapeCasts_S1x131072_S131072 : S1x131072.ShapeCasts S131072
  shapeCasts_S131072_S131072x1 : S131072.ShapeCasts S131072x1
  dot_S512x257_S257x1_S512x1_1_0_0_1_n_n_wf : DotDims.WF S512x257 S257x1 S512x1 [1] [0] [0] [1] [] []
  dot_S1x257_S257x1_S1x1_1_0_0_1_n_n_wf : DotDims.WF S1x257 S257x1 S1x1 [1] [0] [0] [1] [] []
  dot_S1x512_S1024x512_S1x1024_1_1_0_0_n_n_wf : DotDims.WF S1x512 S1024x512 S1x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S131072x512.size a
  hwx0_0 : ∀ i : grid0.Coords, EltTy.bits .f32 = 32 ∨ (Rect.block (s := S131072x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x131072.size a
  hwx0_3 : ∀ i : grid0.Coords, EltTy.bits .f32 = 32 ∨ (Rect.block (s := S1x131072) S1x1024.size (cc0_transform_3 i) (hinb0_3 i)).WholeWords (EltTy.packing .f32)

variable [Facts₀]

def dot_S512x257_S257x1_S512x1_1_0_0_1_n_n : DotDims S512x257 S257x1 S512x1 where
  lhsContracting := [1]
  rhsContracting := [0]
  lhsNonContracting := [0]
  rhsNonContracting := [1]
  lhsBatch := []
  rhsBatch := []
  wf := dot_S512x257_S257x1_S512x1_1_0_0_1_n_n_wf
def dot_S1x257_S257x1_S1x1_1_0_0_1_n_n : DotDims S1x257 S257x1 S1x1 where
  lhsContracting := [1]
  rhsContracting := [0]
  lhsNonContracting := [0]
  rhsNonContracting := [1]
  lhsBatch := []
  rhsBatch := []
  wf := dot_S1x257_S257x1_S1x1_1_0_0_1_n_n_wf
def dot_S1x512_S1024x512_S1x1024_1_1_0_0_n_n : DotDims S1x512 S1024x512 S1x1024 where
  lhsContracting := [1]
  rhsContracting := [1]
  lhsNonContracting := [0]
  rhsNonContracting := [0]
  lhsBatch := []
  rhsBatch := []
  wf := dot_S1x512_S1024x512_S1x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.LibDotReads.lean ====
/- Contractions and two column layouts read at coordinates, on the extended reals, for any extents.
   A matrix product into the zero accumulator, read at (p, c), is one sum over the contraction coordinate k:
   of left(k, p) · right(c, k) when the left operand is contracted on its first axis and the right on its last;
   of left(p, k) · right(c, k) when both are contracted on their last axis. The host's product with the plain
   dimension numbers (rows × contraction by contraction × columns), which has no accumulator, is the sum of
   left(p, k) · right(k, c). A vector of a entries cast to an [a, 1] column reads its entry i at (i, 0), and a
   [1, 1] value broadcast along a row of b entries reads its one entry everywhere. Nothing here depends on a
   particular program: a printed record with the same axis lists is the record used here by `rfl`. -/
import Idealize.ShloMosaic.PureOps.Ideal
import Idealize.ShloMosaic.PureOps.Ideal.Laws
import Idealize.ShloMosaic.Lib.ValueIdx
import Idealize.ShloMosaic.Lib.Pipeline.Value

noncomputable section

open scoped BigOperators

open Idealize.ShloMosaic Idealize.ShloMosaic.ValueIdx

namespace Cert.Lib.DotReads

/-- The dimension numbers of a [K, M] matrix contracted on its FIRST axis with an [N, K] matrix contracted on its
    LAST axis, giving [M, N]: result (p, c) pairs the left operand's column p with the right operand's row c. -/
def firstLast (M K N : Nat) : DotDims ⟨2, ![K, M]⟩ ⟨2, ![N, K]⟩ ⟨2, ![M, N]⟩ where
  lhsContracting := [0]
  rhsContracting := [1]
  lhsNonContracting := [1]
  rhsNonContracting := [0]
  lhsBatch := []
  rhsBatch := []
  wf := ⟨rfl, by simp, rfl, by simp, by simp, by simp, by simpa [List.finRange] using List.Perm.swap 0 1 [],
    by simp [List.finRange], rfl, Nat.two_pos, fun b => by fin_cases b <;> rfl⟩

/-- Left contracted on its first axis, right on its last, into the zero accumulator, at (p, c): the sum over k of
    left(k, p) · right(c, k). -/
theorem firstLast_matmul_zero_apply {M K N : ℕ} {φ₁ φ₂ : FTy} (l : FVec Ideal ⟨2, ![K, M]⟩ φ₁) (r : FVec Ideal ⟨2, ![N, K]⟩ φ₂)
    (p : Fin M) (c : Fin N) :
    FloatOps.matmul (firstLast M K N) none l r (constant (F := Ideal) ⟨2, ![M, N]⟩ .f32 0x00000000#32) (ix2 p c)
      = ∑ k : Fin K, l (ix2 k p) * r (ix2 c k) := by
  rw [Ideal.matmul_constant_zero_apply, ← Equiv.sum_comp (contrEquiv1 (firstLast M K N) K rfl rfl).symm]
  refine Finset.sum_congr rfl fun k _ => ?_
  have hk := contrEquiv1_symm_val (firstLast M K N) K rfl rfl k
  have el : (firstLast M K N).lhsIdx (ix2 p c) ((contrEquiv1 (firstLast M K N) K rfl rfl).symm k) = ix2 k p :=
    funext fun a => Fin.ext (by
      match a with
      | ⟨0, _⟩ => exact ((firstLast M K N).lhsIdx_val_of_single rfl _ _).trans hk
      | ⟨1, _⟩ => rfl)
  have er : (firstLast M K N).rhsIdx (ix2 p c) ((contrEquiv1 (firstLast M K N) K rfl rfl).symm k) = ix2 c k :=
    funext fun a => Fin.ext (by
      match a with
      | ⟨0, _⟩ => rfl
      | ⟨1, _⟩ => exact ((firstLast M K N).rhsIdx_val_of_single rfl _ _).trans hk)
  rw [el, er]

/-- Both operands contracted on their last axis, into the zero accumulator, at (p, c): the sum over k of
    left(p, k) · right(c, k). -/
theorem lastLast_matmul_zero_apply {M K N : ℕ} {φ₁ φ₂ : FTy} (l : FVec Ideal ⟨2, ![M, K]⟩ φ₁) (r : FVec Ideal ⟨2, ![N, K]⟩ φ₂)
    (p : Fin M) (c : Fin N) :
    FloatOps.matmul (DotDims.transposedRhs M K N) none l r (constant (F := Ideal) ⟨2, ![M, N]⟩ .f32 0x00000000#32) (ix2 p c)
      = ∑ k : Fin K, l (ix2 p k) * r (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p c) ((contrEquiv1 (DotDims.transposedRhs M K N) K rfl rfl).symm k) = ix2 p k :=
    funext fun a => Fin.ext (by
      match a with
      | ⟨0, _⟩ => rfl
      | ⟨1, _⟩ => exact ((DotDims.transposedRhs M K N).lhsIdx_val_of_single rfl _ _).trans hk)
  have er : (DotDims.transposedRhs M K N).rhsIdx (ix2 p c) ((contrEquiv1 (DotDims.transposedRhs M K N) K rfl rfl).symm k) = ix2 c k :=
    funext fun a => Fin.ext (by
      match a with
      | ⟨0, _⟩ => rfl
      | ⟨1, _⟩ => exact ((DotDims.transposedRhs M K N).rhsIdx_val_of_single rfl _ _).trans hk)
  rw [el, er]

/-- The host's product with the plain dimension numbers, at (p, c): the sum over k of left(p, k) · right(k, c). -/
theorem plain_dotGeneral_apply {M K N : ℕ} {φ₁ φ₂ : FTy} (sched : HostSchedule) (l : FVec Ideal ⟨2, ![M, K]⟩ φ₁)
    (r : FVec Ideal ⟨2, ![K, N]⟩ φ₂) (p : Fin M) (c : Fin N) :
    FloatOps.dotGeneral (DotDims.plain M K N) none sched l r (ix2 p c) = ∑ k : Fin K, l (ix2 p k) * r (ix2 k c) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A vector of a entries cast to an [a, 1] column reads, at (i, u), the vector's entry i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A [1, 1] value broadcast along a row of b entries reads its one entry at every (u, c). -/
theorem broadcastTo_11_1b_apply {α : Type} {b : ℕ} (v : (⟨2, ![1, 1]⟩ : Shape).Idx → α)
    (h : (⟨2, ![1, 1]⟩ : Shape).Broadcasts ⟨2, ![1, b]⟩) (u : Fin 1) (c : Fin b) :
    broadcastTo ⟨2, ![1, b]⟩ v h (ix2 u c) = v (ix2 (0 : Fin 1) (0 : Fin 1)) := by
  refine broadcastTo_apply v h (ix2 u c) (ix2 (0 : Fin 1) (0 : Fin 1)) fun ax => ?_
  match ax with
  | ⟨0, _⟩ => rfl
  | ⟨1, _⟩ => rfl

end Cert.Lib.DotReads

end
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.Score.lean ====
/- The function both programs compute, on the extended reals. Two linear layers with nothing between them are one
   affine map: with x a batch of rows of 512 features, w1 the first layer's [512, 257] weights, b1 its [1, 257] offsets,
   w2 the second layer's [257, 1] weights and b2 its [1, 1] offset, row r of the result is
       Σ_k (Σ_h w2(h, 0) · w1(k, h)) · x(r, k)  +  (Σ_h b1(0, h) · w2(h, 0) + b2(0, 0)).
   `weight` is the inner sum (the collapsed weight of feature k), `offset` the collapsed offset, `score` the row's
   value; `scoreRow` lays the scores out as one row of 131072 entries (what a launch writes), `scoreCol` as a
   column (what the program returns). Only sums and products appear, so nothing here needs a finite input. -/
import Idealize.ShloMosaic.PureOps.Ideal
import Idealize.ShloMosaic.Lib.ValueIdx

noncomputable section

open scoped BigOperators

open Idealize.ShloMosaic Idealize.ShloMosaic.ValueIdx

namespace Cert.Score

/-- The collapsed weight of feature k: the second layer's weights against row k of the first layer's. -/
def weight (w1 : FVec Ideal ⟨2, ![512, 257]⟩ .f32) (w2 : FVec Ideal ⟨2, ![257, 1]⟩ .f32) (k : Fin 512) : EReal :=
  ∑ h : Fin 257, w2 (ix2 h (0 : Fin 1)) * w1 (ix2 k h)

/-- The collapsed offset: the first layer's offsets against the second layer's weights, plus the second layer's offset. -/
def offset (b1 : FVec Ideal ⟨2, ![1, 257]⟩ .f32) (w2 : FVec Ideal ⟨2, ![257, 1]⟩ .f32) (b2 : FVec Ideal ⟨2, ![1, 1]⟩ .f32) : EReal :=
  (∑ h : Fin 257, b1 (ix2 (0 : Fin 1) h) * w2 (ix2 h (0 : Fin 1))) + b2 (ix2 (0 : Fin 1) (0 : Fin 1))

/-- Row q of a batch of R rows against a weight vector, plus an offset. -/
def affineRow {R : ℕ} (w : Fin 512 → EReal) (b : EReal) (xb : FVec Ideal ⟨2, ![R, 512]⟩ .f32) (q : Fin R) : EReal :=
  (∑ k : Fin 512, w k * xb (ix2 q k)) + b

/-- The score of row r of the whole batch. -/
def score (x : FVec Ideal ⟨2, ![131072, 512]⟩ .f32) (w1 : FVec Ideal ⟨2, ![512, 257]⟩ .f32) (b1 : FVec Ideal ⟨2, ![1, 257]⟩ .f32)
    (w2 : FVec Ideal ⟨2, ![257, 1]⟩ .f32) (b2 : FVec Ideal ⟨2, ![1, 1]⟩ .f32) (r : Fin 131072) : EReal :=
  affineRow (weight w1 w2) (offset b1 w2 b2) x r

/-- The scores as one row of 131072 entries. -/
def scoreRow (x : FVec Ideal ⟨2, ![131072, 512]⟩ .f32) (w1 : FVec Ideal ⟨2, ![512, 257]⟩ .f32) (b1 : FVec Ideal ⟨2, ![1, 257]⟩ .f32)
    (w2 : FVec Ideal ⟨2, ![257, 1]⟩ .f32) (b2 : FVec Ideal ⟨2, ![1, 1]⟩ .f32) : FVec Ideal ⟨2, ![1, 131072]⟩ .f32 :=
  fun i => score x w1 b1 w2 b2 (i 1)

/-- The scores as a column of 131072 entries. -/
def scoreCol (x : FVec Ideal ⟨2, ![131072, 512]⟩ .f32) (w1 : FVec Ideal ⟨2, ![512, 257]⟩ .f32) (b1 : FVec Ideal ⟨2, ![1, 257]⟩ .f32)
    (w2 : FVec Ideal ⟨2, ![257, 1]⟩ .f32) (b2 : FVec Ideal ⟨2, ![1, 1]⟩ .f32) : FVec Ideal ⟨2, ![131072, 1]⟩ .f32 :=
  fun i => score x w1 b1 w2 b2 (i 0)

end Cert.Score

end
-- ==== Proof.KernelBody.lean ====
/- What the fused kernel's body stores, read at an entry. The body forms the collapsed weight row (the second layer's
   weights contracted with the first layer's over the 257 hidden units), the collapsed offset (the first layer's offsets
   against the second layer's weights, plus the second layer's offset), multiplies the weight row with its block of 8192
   rows of x over the 512 features, and adds the offset along the row. So entry (0, q) of what it stores is the affine
   value of row q of the block. -/
import proofs.«123968_g2000102505428102_pallasbulk_307_5_alg».proof.Proof.Gen.KernelIdeal.Skeleton
import proofs.«123968_g2000102505428102_pallasbulk_307_5_alg».proof.Proof.LibDotReads
import proofs.«123968_g2000102505428102_pallasbulk_307_5_alg».proof.Proof.LibPlainMatmul
import proofs.«123968_g2000102505428102_pallasbulk_307_5_alg».proof.Proof.Score

noncomputable section

open scoped BigOperators

open Idealize.ShloMosaic Idealize.ShloMosaic.ValueIdx

namespace Cert.KernelIdeal.Body

open Cert.KernelIdeal Cert.KernelIdeal.Gen Cert.Lib.DotReads Cert.Lib.PlainMatmul Cert.Score

/-- Entry (u, q) of the stored row: the block's row q against the collapsed weights, plus the collapsed offset. The second
    layer's weights are loaded twice (v0 for the weights, v4 for the offset). -/
theorem pay_apply (v0 : Vec Ideal S257x1 .f32) (v1 : Vec Ideal S512x257 .f32) (v3 : Vec Ideal S1x257 .f32)
    (v4 : Vec Ideal S257x1 .f32) (v6 : Vec Ideal S1x1 .f32) (v8 : Vec Ideal S8192x512 .f32) (u : Fin 1) (q : Fin 8192) :
    k0_pay1 (F := Ideal) v0 v1 v3 v4 v6 v8 (ix2 u q) = affineRow (weight v1 v0) (offset v3 v4 v6) v8 q := by
  obtain rfl : u = 0 := Subsingleton.elim _ _
  unfold k0_pay1 affineRow weight offset
  rw [addf_apply]
  refine congrArg₂ (· + ·) ?_ ?_
  · exact (lastLast_matmul_zero_apply _ v8 (0 : Fin 1) q).trans
      (Finset.sum_congr rfl fun k _ => congrArg (· * v8 (ix2 q k)) (firstLast_matmul_zero_apply v0 v1 (0 : Fin 1) k))
  · exact (broadcastTo_11_1b_apply _ _ (0 : Fin 1) q).trans
      (congrArg (· + v6 (ix2 (0 : Fin 1) (0 : Fin 1))) (plain_matmul_zero_apply v3 v4 (0 : Fin 1) (0 : Fin 1)))

end Cert.KernelIdeal.Body

end
-- ==== Proof.KernelValue.lean ====
/- The fused kernel's result array. Grid point t of 16 stages rows 8192·t … 8192·t + 8191 of x (window 0), the whole of
   the first layer's weights, the second layer's weights, the first layer's offsets and the second layer's offset
   (windows 1–4, whose block never moves), and writes back entries 8192·t … 8192·t + 8191 of the one-row result
   (window 5). What it writes is the affine value of each of its rows (the body, read at an entry), so it is block t of
   the row of scores of the whole batch; the 16 blocks tile the row, so the launch leaves the row of scores. The two
   reshapes after the launch lay that row out as a column. -/
import proofs.«123968_g2000102505428102_pallasbulk_307_5_alg».proof.Proof.Gen.KernelIdeal.Frame
import proofs.«123968_g2000102505428102_pallasbulk_307_5_alg».proof.Proof.KernelBody
import Idealize.ShloMosaic.Lib.Pipeline.Value
import Idealize.ShloMosaic.Lib.ValueLayout
import Idealize.ShloMosaic.Lib.StableHlo.Run
import Idealize.ShloMosaic.Lib.Tactic

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Score Cert.Lib.DotReads

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 16 points: the x window and the result window move with the point, along the rows
    of x and along the result's one row; the four parameter windows stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

/-- The row of scores of the whole batch, of the arrays as the launch finds them. -/
abbrev scores (c : Dev nD) : Buf (Elt Ideal) ((c : Thread nD τ).loc main_v0) :=
  scoreRow (V m c main_arg0) (V m c main_arg1) (V m c main_arg2) (V m c main_arg3) (V m c main_arg4)

/-- The first layer's weights are staged whole at every point. -/
theorem blk_w1 (c : Dev nD) (t : Fin cfg0.N) : (iblk m c 1 t : Vec Ideal S512x257 .f32) = (V m c main_arg1 : S512x257.Idx → Elt Ideal .f32) := by
  obtain ⟨-, -, e0, e1, -⟩ := idx_facts t
  funext y
  unfold iblk
  rw [View.read_apply]
  show V m c main_arg1 _ = V m c main_arg1 y
  refine congrArg _ (funext fun a => Fin.ext ?_)
  match a with
  | ⟨0, _⟩ => show win0_1.index t (0 : Fin 2) * 512 + 1 * (y 0).val = (y 0).val; rw [e0]; omega
  | ⟨1, _⟩ => show win0_1.index t (1 : Fin 2) * 257 + 1 * (y 1).val = (y 1).val; rw [e1]; omega

/-- The second layer's weights are staged whole at every point. -/
theorem blk_w2 (c : Dev nD) (t : Fin cfg0.N) : (iblk m c 2 t : Vec Ideal S257x1 .f32) = (V m c main_arg3 : S257x1.Idx → Elt Ideal .f32) := by
  obtain ⟨-, -, -, -, e0, e1, -⟩ := idx_facts t
  funext y
  unfold iblk
  rw [View.read_apply]
  show V m c main_arg3 _ = V m c main_arg3 y
  refine congrArg _ (funext fun a => Fin.ext ?_)
  match a with
  | ⟨0, _⟩ => show win0_2.index t (0 : Fin 2) * 257 + 1 * (y 0).val = (y 0).val; rw [e0]; omega
  | ⟨1, _⟩ => show win0_2.index t (1 : Fin 2) * 1 + 1 * (y 1).val = (y 1).val; rw [e1]; omega

/-- The first layer's offsets are staged whole at every point. -/
theorem blk_b1 (c : Dev nD) (t : Fin cfg0.N) : (iblk m c 3 t : Vec Ideal S1x257 .f32) = (V m c main_arg2 : S1x257.Idx → Elt Ideal .f32) := by
  obtain ⟨-, -, -, -, -, -, e0, e1, -⟩ := idx_facts t
  funext y
  unfold iblk
  rw [View.read_apply]
  show V m c main_arg2 _ = V m c main_arg2 y
  refine congrArg _ (funext fun a => Fin.ext ?_)
  match a with
  | ⟨0, _⟩ => show win0_3.index t (0 : Fin 2) * 1 + 1 * (y 0).val = (y 0).val; rw [e0]; omega
  | ⟨1, _⟩ => show win0_3.index t (1 : Fin 2) * 257 + 1 * (y 1).val = (y 1).val; rw [e1]; omega

/-- The second layer's offset is staged whole at every point. -/
theorem blk_b2 (c : Dev nD) (t : Fin cfg0.N) : (iblk m c 4 t : Vec Ideal S1x1 .f32) = (V m c main_arg4 : S1x1.Idx → Elt Ideal .f32) := by
  obtain ⟨-, -, -, -, -, -, -, -, e0, e1, -⟩ := idx_facts t
  funext y
  unfold iblk
  rw [View.read_apply]
  show V m c main_arg4 _ = V m c main_arg4 y
  refine congrArg _ (funext fun a => Fin.ext ?_)
  match a with
  | ⟨0, _⟩ => show win0_4.index t (0 : Fin 2) * 1 + 1 * (y 0).val = (y 0).val; rw [e0]; omega
  | ⟨1, _⟩ => show win0_4.index t (1 : Fin 2) * 1 + 1 * (y 1).val = (y 1).val; rw [e1]; omega

/-- Row q of point t's block of x is row 8192·t + q of x. -/
theorem blk_x (c : Dev nD) (t : Fin cfg0.N) (q : Fin 8192) (k : Fin 512) (r : Fin 131072) (hr : r.val = 8192 * t.val + q.val) :
    (iblk m c 0 t : Vec Ideal S8192x512 .f32) (ix2 q k) = (V m c main_arg0 : S131072x512.Idx → Elt Ideal .f32) (ix2 r k) := by
  obtain ⟨e0, e1, -⟩ := idx_facts t
  unfold iblk
  rw [View.read_apply]
  show V m c main_arg0 _ = V m c main_arg0 _
  refine congrArg _ (funext fun a => Fin.ext ?_)
  match a with
  | ⟨0, _⟩ => show win0_0.index t (0 : Fin 2) * 8192 + 1 * q.val = r.val; rw [e0, hr]; omega
  | ⟨1, _⟩ => show win0_0.index t (1 : Fin 2) * 512 + 1 * k.val = k.val; rw [e1]; omega

/-- What the body leaves in the result's staging buffer, at entry (u, q), from any contents of the five input buffers: the
    affine value of row q of the x buffer under the weights and offset collapsed from the four parameter buffers. -/
theorem out_apply (x0 : Vec Ideal S8192x512 .f32) (x1 : Vec Ideal S512x257 .f32) (x2 : Vec Ideal S257x1 .f32)
    (x3 : Vec Ideal S1x257 .f32) (x4 : Vec Ideal S1x1 .f32) (u : Fin 1) (q : Fin 8192) :
    out0_5 x0 x1 x2 x3 x4 (ix2 u q) = affineRow (weight x1 x2) (offset x3 x2 x4) x0 q := by
  unfold out0_5
  rw [View.canon_unit_zero hz]
  simp only [View.ld_unit_zero (S := S257x1) hz, View.ld_unit_zero (S := S512x257) hz, View.ld_unit_zero (S := S1x257) hz,
    View.ld_unit_zero (S := S1x1) hz, View.ld_unit_zero (S := S8192x512) hz]
  exact Body.pay_apply x2 x1 x3 x2 x4 x0 u q

/-- What point t writes back is block t of the row of scores. -/
theorem flushed_eq (c : Dev nD) (t : Fin cfg0.N) :
    (dats m 0 c).flushed 5 t = ((cfg0.win 5).blk t).view.read (Elt Ideal) (scores m c) := by
  show (cfg0.win 5).cut (grid0.coords t) ((dats m 0 c).after 5 t) = _
  rw [after0_5]
  obtain ⟨-, -, -, -, -, -, -, -, -, -, e0, e1⟩ := idx_facts t
  refine funext fun (j : S1x8192.Idx) => ?_
  obtain ⟨u, q, rfl⟩ : ∃ (u : Fin 1) (q : Fin 8192), j = ix2 u q := ⟨j 0, j 1, eq_ix2 j⟩
  have hr : (((cfg0.win 5).blk t).view.emb (ix2 u q) (1 : Fin 2)).val = 8192 * t.val + q.val := by
    show win0_5.index t (1 : Fin 2) * 8192 + 1 * q.val = _
    rw [e1]; omega
  refine (out_apply (iblk m c 0 t) (iblk m c 1 t) (iblk m c 2 t) (iblk m c 3 t) (iblk m c 4 t) u q).trans ?_
  rw [blk_w1 m c t, blk_w2 m c t, blk_b1 m c t, blk_b2 m c t]
  show affineRow _ _ (iblk m c 0 t) q = affineRow _ _ (V m c main_arg0) (((cfg0.win 5).blk t).view.emb (ix2 u q) (1 : Fin 2))
  unfold affineRow
  exact congrArg (· + _) (Finset.sum_congr rfl fun k _ => congrArg (_ * ·) (blk_x m c t q k _ hr))

/-- An entry of the result row is in point t's block iff its column is among the point's 8192. -/
theorem mem_blk (t : Fin cfg0.N) (i : S1x131072.Idx) :
    i ∈ ((cfg0.win 5).blk t).view.set ↔ ∀ a : Fin 2, win0_5.index t a * S1x8192.size a ≤ (i a).val ∧ (i a).val < win0_5.index t a * S1x8192.size a + S1x8192.size a := by
  show i ∈ ((View.whole main_v0).slice (win0_5.rect t)).set ↔ _
  rw [View.set_slice_whole, Rect.mem_set_unit]
  exact Iff.rfl

/-- Every entry of the result row is in the block of the point its column divided by 8192 names. -/
theorem cover (i : S1x131072.Idx) : ∃ t : Fin cfg0.N, (cfg0.win 5).flush t = true ∧ i ∈ ((cfg0.win 5).blk t).view.set := by
  have hi0 : (i 0).val < 1 := (i 0).isLt
  have hi1 : (i 1).val < 131072 := (i 1).isLt
  have hN : cfg0.N = 16 := N_0
  obtain ⟨t, ht⟩ : ∃ t : Fin cfg0.N, t.val = (i 1).val / 8192 := ⟨⟨(i 1).val / 8192, by omega⟩, rfl⟩
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 1 ≤ (i 0).val ∧ (i 0).val < win0_5.index t (0 : Fin 2) * 1 + 1; rw [e0]; omega
  | ⟨1, _⟩ => show win0_5.index t (1 : Fin 2) * 8192 ≤ (i 1).val ∧ (i 1).val < win0_5.index t (1 : Fin 2) * 8192 + 8192; rw [e1, ht]; omega

/-- The launch leaves the row of scores in its result array. -/
theorem final (c : Dev nD) : (dats m 0 c).arrAt 5 cfg0.N = scores m c :=
  (dats m 0 c).arrAt_eq_of_cover 5 (scores m c) (fun t _ => flushed_eq m c t) cover

/-- The program's result: the row of scores cast to a vector and then to a column. -/
theorem result_eq (c : Dev nD) :
    Pipeline.afterTail₀ cfgs (dats m) 0 (V0 m) [hostOps1] c main_v2
      = (scoreCol (m ((c : Thread nD τ).loc main_arg0)) (m ((c : Thread nD τ).loc main_arg1)) (m ((c : Thread nD τ).loc main_arg2))
          (m ((c : Thread nD τ).loc main_arg3)) (m ((c : Thread nD τ).loc main_arg4)) : S131072x1.Idx → Elt Ideal .f32) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v0)
      = scores m c := (Pipeline.withArrays_arr spec0 launch0.win.arr_inj c _ _ 5).trans (final m c)
  rw [hw]
  funext i
  obtain ⟨r, u, rfl⟩ : ∃ (r : Fin 131072) (u : Fin 1), i = ix2 r u := ⟨i 0, i 1, eq_ix2 i⟩
  show shapeCast S131072x1 (shapeCast S131072 (scores m c) shapeCasts_S1x131072_S131072) shapeCasts_S131072_S131072x1 (ix2 r u) = _
  rw [shapeCast_a_a1_apply, shapeCast_1a_a_apply]
  rfl

/-- The run, read: every weakly fair execution ends with the result at the column of scores of the argument arrays,
    and the argument arrays unchanged. -/
theorem run : θ_run defs (onTc (τ := τ) (main (F := Ideal))) ⟨m, fun _ => 0, ρ⟩ fun r => ∀ c : Dev nD,
      r.2.mem ((c : Thread nD τ).loc main_v2)
        = (scoreCol (m ((c : Thread nD τ).loc main_arg0)) (m ((c : Thread nD τ).loc main_arg1)) (m ((c : Thread nD τ).loc main_arg2))
            (m ((c : Thread nD τ).loc main_arg3)) (m ((c : Thread nD τ).loc main_arg4)) : S131072x1.Idx → Elt Ideal .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v2 (Pipeline.mem_restRefs_of main_v2 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).1 2).trans (((dats m 0 c).arrAt_in 2 rfl _).trans ((A_eq m c 2).trans (V_main_arg3 m c))),
      ((h c).1 4).trans (((dats m 0 c).arrAt_in 4 rfl _).trans ((A_eq m c 4).trans (V_main_arg4 m c)))⟩)
    (run_main m ρ)

end Cert.KernelIdeal.Hand

end
-- ==== Proof.RefBody.lean ====
/- What the reference's kernel body stores, read at an entry. The body is handed a weight row of 512 entries and a
   [1, 1] offset already collapsed by the host, multiplies the weight row with its block of 1024 rows of x over the 512
   features, and adds the offset along the row. So entry (0, q) of what it stores is the affine value of row q of the
   block under that weight row and that offset. The two casts in the body keep the shape and change nothing. -/
import proofs.«123968_g2000102505428102_pallasbulk_307_5_alg».proof.Proof.Gen.ReferenceIdeal.Skeleton
import proofs.«123968_g2000102505428102_pallasbulk_307_5_alg».proof.Proof.LibDotReads
import proofs.«123968_g2000102505428102_pallasbulk_307_5_alg».proof.Proof.Score
import Idealize.ShloMosaic.Lib.Pipeline.Value

noncomputable section

open scoped BigOperators

open Idealize.ShloMosaic Idealize.ShloMosaic.ValueIdx

namespace Cert.ReferenceIdeal.Body

open Cert.ReferenceIdeal Cert.ReferenceIdeal.Gen Cert.Lib.DotReads Cert.Score

/-- Entry (u, q) of the stored row: the block's row q against the staged weight row, plus the staged offset. -/
theorem pay_apply (v0 : Vec Ideal S1x512 .f32) (v2 : Vec Ideal S1024x512 .f32) (v4 : Vec Ideal S1x1 .f32) (u : Fin 1) (q : Fin 1024) :
    k0_pay1 (F := Ideal) v0 v2 v4 (ix2 u q)
      = affineRow (fun k => v0 (ix2 (0 : Fin 1) k)) (v4 (ix2 (0 : Fin 1) (0 : Fin 1))) v2 q := by
  obtain rfl : u = 0 := Subsingleton.elim _ _
  unfold k0_pay1 affineRow
  rw [shapeCast_self, shapeCast_self, addf_apply]
  refine congrArg₂ (· + ·) ?_ ?_
  · exact lastLast_matmul_zero_apply v0 v2 (0 : Fin 1) q
  · exact broadcastTo_11_1b_apply v4 _ (0 : Fin 1) q

end Cert.ReferenceIdeal.Body

end
-- ==== Proof.RefValue.lean ====
/- The reference's result array. Before its launch the host collapses the two layers: it multiplies the first layer's
   weights with the second layer's over the 257 hidden units and transposes the [512, 1] product into a weight row, and
   it multiplies the first layer's offsets with the second layer's weights and adds the second layer's offset. Entry k
   of that weight row is Σ_h w1(k, h) · w2(h, 0), the collapsed weight of feature k with each product's factors in the
   other order — products of extended reals commute, so it is the same number. Grid point t of 128 stages rows
   1024·t … 1024·t + 1023 of x (window 0), the whole weight row and the whole offset (windows 1, 2), and writes back
   entries 1024·t … 1024·t + 1023 of the one-row result (window 3): block t of the row of scores. The 128 blocks tile the
   row, so the launch leaves the row of scores, and the two reshapes after it lay that row out as a column. -/
import proofs.«123968_g2000102505428102_pallasbulk_307_5_alg».proof.Proof.Gen.ReferenceIdeal.Frame
import proofs.«123968_g2000102505428102_pallasbulk_307_5_alg».proof.Proof.RefBody
import Idealize.ShloMosaic.Lib.Pipeline.Value
import Idealize.ShloMosaic.Lib.ValueLayout
import Idealize.ShloMosaic.Lib.StableHlo.Run
import Idealize.ShloMosaic.Lib.Tactic

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.ReferenceIdeal.Hand

open Cert.ReferenceIdeal Cert.ReferenceIdeal.Gen Cert.Score Cert.Lib.DotReads

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 128 points: the x window and the result window move with the point, along the rows
    of x and along the result's one row; the weight row's and the offset's windows stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

/-- The row of scores of the whole batch, of the argument arrays. -/
abbrev scores (c : Dev nD) : Buf (Elt Ideal) ((c : Thread nD τ).loc main_v4) :=
  scoreRow (m ((c : Thread nD τ).loc main_arg0)) (m ((c : Thread nD τ).loc main_arg1)) (m ((c : Thread nD τ).loc main_arg2))
    (m ((c : Thread nD τ).loc main_arg3)) (m ((c : Thread nD τ).loc main_arg4))

/-- The weight row the launch finds: the transpose of the first layer's weights times the second layer's. -/
theorem host_row (c : Dev nD) : @Eq (S1x512.Idx → Elt Ideal .f32) (V m c main_v1)
    (transpose S1x512 [1, 0] (Host.dotGeneral (F := Ideal) (φ₁ := .f32) (φ₂ := .f32) dot_S512x257_S257x1_S512x1_1_0_0_1_n_n none
        (m ((c : Thread nD τ).loc main_arg1)) (m ((c : Thread nD τ).loc main_arg3))) transposes_S512x1_S1x512_1_0) := by
  show StableHlo.after hostOps0 (fun b => m (c, b)) (Proc.devRef .tc main_v1) = _
  after_results

/-- The offset the launch finds: the first layer's offsets times the second layer's weights, plus the second layer's offset. -/
theorem host_off (c : Dev nD) : @Eq (S1x1.Idx → Elt Ideal .f32) (V m c main_v3)
    (addf (F := Ideal) (Host.dotGeneral (F := Ideal) (φ₁ := .f32) (φ₂ := .f32) dot_S1x257_S257x1_S1x1_1_0_0_1_n_n none
        (m ((c : Thread nD τ).loc main_arg2)) (m ((c : Thread nD τ).loc main_arg3))) (m ((c : Thread nD τ).loc main_arg4))) := by
  show StableHlo.after hostOps0 (fun b => m (c, b)) (Proc.devRef .tc main_v3) = _
  after_results

/-- Entry k of the host's weight row is the collapsed weight of feature k: the same 257 products, each with its two
    factors in the other order. -/
theorem host_weight (c : Dev nD) : (fun k : Fin 512 => (V m c main_v1 : S1x512.Idx → Elt Ideal .f32) (ix2 (0 : Fin 1) k))
    = weight (m ((c : Thread nD τ).loc main_arg1)) (m ((c : Thread nD τ).loc main_arg3)) := by
  funext k
  rw [host_row m c]
  refine (transpose_ix2_apply _ _ (0 : Fin 1) k).trans ?_
  refine (plain_dotGeneral_apply .single _ _ k (0 : Fin 1)).trans ?_
  unfold weight
  exact Finset.sum_congr rfl fun h _ => mul_comm _ _

/-- The host's offset is the collapsed offset. -/
theorem host_offset (c : Dev nD) : (V m c main_v3 : S1x1.Idx → Elt Ideal .f32) (ix2 (0 : Fin 1) (0 : Fin 1))
    = offset (m ((c : Thread nD τ).loc main_arg2)) (m ((c : Thread nD τ).loc main_arg3)) (m ((c : Thread nD τ).loc main_arg4)) := by
  rw [host_off m c, addf_apply]
  unfold offset
  exact congrArg (· + _) (plain_dotGeneral_apply .single _ _ (0 : Fin 1) (0 : Fin 1))

/-- The weight row is staged whole at every point. -/
theorem blk_row (c : Dev nD) (t : Fin cfg0.N) : (iblk m c 1 t : Vec Ideal S1x512 .f32) = (V m c main_v1 : S1x512.Idx → Elt Ideal .f32) := by
  obtain ⟨-, -, e0, e1, -⟩ := idx_facts t
  funext y
  unfold iblk
  rw [View.read_apply]
  show V m c main_v1 _ = V m c main_v1 y
  refine congrArg _ (funext fun a => Fin.ext ?_)
  match a with
  | ⟨0, _⟩ => show win0_1.index t (0 : Fin 2) * 1 + 1 * (y 0).val = (y 0).val; rw [e0]; omega
  | ⟨1, _⟩ => show win0_1.index t (1 : Fin 2) * 512 + 1 * (y 1).val = (y 1).val; rw [e1]; omega

/-- The offset is staged whole at every point. -/
theorem blk_off (c : Dev nD) (t : Fin cfg0.N) : (iblk m c 2 t : Vec Ideal S1x1 .f32) = (V m c main_v3 : S1x1.Idx → Elt Ideal .f32) := by
  obtain ⟨-, -, -, -, e0, e1, -⟩ := idx_facts t
  funext y
  unfold iblk
  rw [View.read_apply]
  show V m c main_v3 _ = V m c main_v3 y
  refine congrArg _ (funext fun a => Fin.ext ?_)
  match a with
  | ⟨0, _⟩ => show win0_2.index t (0 : Fin 2) * 1 + 1 * (y 0).val = (y 0).val; rw [e0]; omega
  | ⟨1, _⟩ => show win0_2.index t (1 : Fin 2) * 1 + 1 * (y 1).val = (y 1).val; rw [e1]; omega

/-- Row q of point t's block of x is row 1024·t + q of x. -/
theorem blk_x (c : Dev nD) (t : Fin cfg0.N) (q : Fin 1024) (k : Fin 512) (r : Fin 131072) (hr : r.val = 1024 * t.val + q.val) :
    (iblk m c 0 t : Vec Ideal S1024x512 .f32) (ix2 q k)
      = (m ((c : Thread nD τ).loc main_arg0) : S131072x512.Idx → Elt Ideal .f32) (ix2 r k) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 1024 + 1 * q.val = r.val; rw [e0, hr]; omega
  | ⟨1, _⟩ => show win0_0.index t (1 : Fin 2) * 512 + 1 * k.val = k.val; rw [e1]; omega

/-- What the body leaves in the result's staging buffer, at entry (u, q), from any contents of the three input buffers: the
    affine value of row q of the x buffer under the staged weight row and offset. -/
theorem out_apply (x0 : Vec Ideal S1024x512 .f32) (x1 : Vec Ideal S1x512 .f32) (x2 : Vec Ideal S1x1 .f32) (u : Fin 1) (q : Fin 1024) :
    out0_3 x0 x1 x2 (ix2 u q) = affineRow (fun k => x1 (ix2 (0 : Fin 1) k)) (x2 (ix2 (0 : Fin 1) (0 : Fin 1))) x0 q := by
  unfold out0_3
  rw [View.canon_unit_zero hz]
  simp only [View.ld_unit_zero (S := S1x512) hz, View.ld_unit_zero (S := S1024x512) hz, View.ld_unit_zero (S := S1x1) hz]
  exact Body.pay_apply x1 x0 x2 u q

/-- What point t writes back is block t of the row of scores. -/
theorem flushed_eq (c : Dev nD) (t : Fin cfg0.N) :
    (dats m 0 c).flushed 3 t = ((cfg0.win 3).blk t).view.read (Elt Ideal) (scores m c) := by
  show (cfg0.win 3).cut (grid0.coords t) ((dats m 0 c).after 3 t) = _
  rw [after0_3]
  obtain ⟨-, -, -, -, -, -, e0, e1⟩ := idx_facts t
  refine funext fun (j : S1x1024.Idx) => ?_
  obtain ⟨u, q, rfl⟩ : ∃ (u : Fin 1) (q : Fin 1024), j = ix2 u q := ⟨j 0, j 1, eq_ix2 j⟩
  have hr : (((cfg0.win 3).blk t).view.emb (ix2 u q) (1 : Fin 2)).val = 1024 * t.val + q.val := by
    show win0_3.index t (1 : Fin 2) * 1024 + 1 * q.val = _
    rw [e1]; omega
  refine (out_apply (iblk m c 0 t) (iblk m c 1 t) (iblk m c 2 t) u q).trans ?_
  rw [blk_row m c t, blk_off m c t, host_weight m c, host_offset m c]
  show affineRow _ _ (iblk m c 0 t) q
    = affineRow _ _ (m ((c : Thread nD τ).loc main_arg0)) (((cfg0.win 3).blk t).view.emb (ix2 u q) (1 : Fin 2))
  unfold affineRow
  exact congrArg (· + _) (Finset.sum_congr rfl fun k _ => congrArg (_ * ·) (blk_x m c t q k _ hr))

/-- An entry of the result row is in point t's block iff its column is among the point's 1024. -/
theorem mem_blk (t : Fin cfg0.N) (i : S1x131072.Idx) :
    i ∈ ((cfg0.win 3).blk t).view.set ↔ ∀ a : Fin 2, win0_3.index t a * S1x1024.size a ≤ (i a).val ∧ (i a).val < win0_3.index t a * S1x1024.size a + S1x1024.size a := by
  show i ∈ ((View.whole main_v4).slice (win0_3.rect t)).set ↔ _
  rw [View.set_slice_whole, Rect.mem_set_unit]
  exact Iff.rfl

/-- Every entry of the result row is in the block of the point its column divided by 1024 names. -/
theorem cover (i : S1x131072.Idx) : ∃ t : Fin cfg0.N, (cfg0.win 3).flush t = true ∧ i ∈ ((cfg0.win 3).blk t).view.set := by
  have hi0 : (i 0).val < 1 := (i 0).isLt
  have hi1 : (i 1).val < 131072 := (i 1).isLt
  have hN : cfg0.N = 128 := N_0
  obtain ⟨t, ht⟩ : ∃ t : Fin cfg0.N, t.val = (i 1).val / 1024 := ⟨⟨(i 1).val / 1024, by omega⟩, rfl⟩
  obtain ⟨-, -, -, -, -, -, e0, e1⟩ := idx_facts t
  refine ⟨t, flush0_3 t, ?_⟩
  rw [mem_blk]
  intro a
  match a with
  | ⟨0, _⟩ => show win0_3.index t (0 : Fin 2) * 1 ≤ (i 0).val ∧ (i 0).val < win0_3.index t (0 : Fin 2) * 1 + 1; rw [e0]; omega
  | ⟨1, _⟩ => show win0_3.index t (1 : Fin 2) * 1024 ≤ (i 1).val ∧ (i 1).val < win0_3.index t (1 : Fin 2) * 1024 + 1024; rw [e1, ht]; omega

/-- The launch leaves the row of scores in its result array. -/
theorem final (c : Dev nD) : (dats m 0 c).arrAt 3 cfg0.N = scores m c :=
  (dats m 0 c).arrAt_eq_of_cover 3 (scores m c) (fun t _ => flushed_eq m c t) cover

/-- The program's result: the row of scores cast to a vector and then to a column. -/
theorem result_eq (c : Dev nD) :
    Pipeline.afterTail₀ cfgs (dats m) 0 (V0 m) [hostOps1] c main_v6
      = (scoreCol (m ((c : Thread nD τ).loc main_arg0)) (m ((c : Thread nD τ).loc main_arg1)) (m ((c : Thread nD τ).loc main_arg2))
          (m ((c : Thread nD τ).loc main_arg3)) (m ((c : Thread nD τ).loc main_arg4)) : S131072x1.Idx → Elt Ideal .f32) := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v4)
      = scores m c := (Pipeline.withArrays_arr spec0 launch0.win.arr_inj c _ _ 3).trans (final m c)
  rw [hw]
  funext i
  obtain ⟨r, u, rfl⟩ : ∃ (r : Fin 131072) (u : Fin 1), i = ix2 r u := ⟨i 0, i 1, eq_ix2 i⟩
  show shapeCast S131072x1 (shapeCast S131072 (scores m c) shapeCasts_S1x131072_S131072) shapeCasts_S131072_S131072x1 (ix2 r u) = _
  rw [shapeCast_a_a1_apply, shapeCast_1a_a_apply]
  rfl

/-- The run, read: every weakly fair execution ends with the result at the column of scores of the argument arrays,
    and the argument arrays unchanged. -/
theorem run : θ_run defs (onTc (τ := τ) (main (F := Ideal))) ⟨m, fun _ => 0, ρ⟩ fun r => ∀ c : Dev nD,
      r.2.mem ((c : Thread nD τ).loc main_v6)
        = (scoreCol (m ((c : Thread nD τ).loc main_arg0)) (m ((c : Thread nD τ).loc main_arg1)) (m ((c : Thread nD τ).loc main_arg2))
            (m ((c : Thread nD τ).loc main_arg3)) (m ((c : Thread nD τ).loc main_arg4)) : S131072x1.Idx → Elt Ideal .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v6 (Pipeline.mem_restRefs_of main_v6 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.ReferenceIdeal.Hand

end
-- ==== Proof.lean ====
/- Two linear layers with nothing between them, out = (x · w1 + b1) · w2 + b2 over a batch of 131072 rows of 512 features
   with 257 hidden units, computed two ways as ONE affine map of x. The kernel collapses the layers inside its launch at
   every grid point — the weight row Σ_h w2(h, 0) · w1(k, h) and the offset Σ_h b1(0, h) · w2(h, 0) + b2 — and multiplies the
   weight row with its 8192 rows of x; the reference collapses them on the host before its launch (the weight row as the
   transposed product Σ_h w1(k, h) · w2(h, 0)) and its launch multiplies that row with 1024 rows of x at a time; both add the
   offset along the row and reshape the row of 131072 results into a column. On the extended reals every operation is the
   exact one, so both results are, row by row, Σ_k weight(k) · x(r, k) + offset: the two differ only in the order of the two
   factors of each product under the inner sum and in how the rows are cut into blocks. Products of extended reals commute and
   the blocks tile the row either way, so the results are equal for every input: the precondition is never used. The
   idealized kernel is the kernel's own text read at the exact operations (no operation was rewritten), and each program's
   frame is its generated one. -/
import proofs.«123968_g2000102505428102_pallasbulk_307_5_alg».proof.Defs
import proofs.«123968_g2000102505428102_pallasbulk_307_5_alg».proof.Proof.Gen.Kernel
import proofs.«123968_g2000102505428102_pallasbulk_307_5_alg».proof.Proof.Gen.Kernel.Skeleton
import proofs.«123968_g2000102505428102_pallasbulk_307_5_alg».proof.Proof.Gen.Kernel.Launch
import proofs.«123968_g2000102505428102_pallasbulk_307_5_alg».proof.Proof.Gen.Kernel.Points
import proofs.«123968_g2000102505428102_pallasbulk_307_5_alg».proof.Proof.Gen.Kernel.Frame
import proofs.«123968_g2000102505428102_pallasbulk_307_5_alg».proof.Proof.Gen.KernelIdeal
import proofs.«123968_g2000102505428102_pallasbulk_307_5_alg».proof.Proof.Gen.KernelIdeal.Skeleton
import proofs.«123968_g2000102505428102_pallasbulk_307_5_alg».proof.Proof.Gen.KernelIdeal.Launch
import proofs.«123968_g2000102505428102_pallasbulk_307_5_alg».proof.Proof.Gen.KernelIdeal.Points
import proofs.«123968_g2000102505428102_pallasbulk_307_5_alg».proof.Proof.Gen.KernelIdeal.Frame
import proofs.«123968_g2000102505428102_pallasbulk_307_5_alg».proof.Proof.Gen.ReferenceIdeal
import proofs.«123968_g2000102505428102_pallasbulk_307_5_alg».proof.Proof.Gen.ReferenceIdeal.Skeleton
import proofs.«123968_g2000102505428102_pallasbulk_307_5_alg».proof.Proof.Gen.ReferenceIdeal.Launch
import proofs.«123968_g2000102505428102_pallasbulk_307_5_alg».proof.Proof.Gen.ReferenceIdeal.Points
import proofs.«123968_g2000102505428102_pallasbulk_307_5_alg».proof.Proof.Gen.ReferenceIdeal.Frame
import proofs.«123968_g2000102505428102_pallasbulk_307_5_alg».proof.Proof.Gen.Pre_finite_inputs
import proofs.«123968_g2000102505428102_pallasbulk_307_5_alg».proof.Proof.KernelValue
import proofs.«123968_g2000102505428102_pallasbulk_307_5_alg».proof.Proof.RefValue
import Idealize.ShloMosaic.Adequacy
import Idealize.ShloMosaic.Init

noncomputable section

namespace Cert.Proof

open Idealize.ShloMosaic Idealize.SL.Sem Cert.Kernel

/-- Both idealized programs end with the column of scores of the argument arrays; from memories that agree on the
    arguments those are the same column. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Score.scoreCol (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Hand.run m ρ, ?_⟩
  refine (θ_run Cert.ReferenceIdeal.defs _ _).mono (fun _ h c => ?_) (Cert.ReferenceIdeal.Hand.run m' ρ')
  obtain ⟨h0, h1, h2, h3, h4, h5⟩ := h c
  obtain ⟨a0, a1, a2, a3, a4⟩ := hagree c
  refine ⟨h0.trans ?_, h1, h2, h3, h4, h5⟩
  rw [a0, a1, a2, a3, a4]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
